-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x2048x1024 .f32) (main_arg1 : FVec F S8x2048x1024 .f32) (main_arg2 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S1x512x1024 : Shape := ⟨3, ![1, 512, 1024]⟩
abbrev S1x2048x1024 : Shape := ⟨3, ![1, 2048, 1024]⟩
abbrev S1x512x2048 : Shape := ⟨3, ![1, 512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S8x2048x2048, .f32⟩
  | .hbm, ⟨4, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x512x2048, .f32⟩
  | .local _ .vmem, ⟨6, _⟩ => ⟨S1x512x2048, .f32⟩
  | .local _ .vmem, ⟨7, _⟩ => ⟨S1x512x1024, .f32⟩
  | .local _ .vmem, ⟨8, _⟩ => ⟨S1x512x1024, .f32⟩
  | .local _ .vmem, ⟨9, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .f32 = 32 ∨ (Rect.block (s := S8x2048x1024) S1x2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x2048x1024.size a
  hwx0_4 : ∀ i : grid0.Coords, EltTy.bits .f32 = 32 ∨ (Rect.block (s := S8x2048x1024) S1x512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048x1, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S8x2048x1024_S8x2048_d2 : S8x2048x1024.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x1024_0_1_2 : S8x2048x1.BroadcastsInDim S8x2048x1024 (![0, 1, 2] : Fin 3 → Fin S8x2048x1024.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf

class Facts : Prop extends Facts₀ where

variable [Facts]
-- ==== Proof.Spec.lean ====
/-
  The mathematics both programs compute, written once, over the extended reals.

  For a row `x` of the first input (1024 entries) and the weight matrix `W`, the logits are `∑ d, x d * W d e`. A
  row of attention is their softmax in the stabilised form: subtract the row's maximum `μ` (the fold of `max` over
  the row, started from the value of the f32 word of −∞, which is never evaluated: both programs start from the
  same word), exponentiate, and divide each entry by the sum of the row. The weighted sum at `(b, t, s)` contracts
  row `(b, t)` of attention with row `(b, s)` of the other input.

  The two whole-array functions `attention` and `weighted` are what both programs are shown to compute; the two
  block functions are the same formulas on one grid point's blocks (512 rows of one batch entry against all 2048
  rows of the same batch entry).
-/
import Idealize.ShloMosaic.PureOps.Ideal
import Idealize.ShloMosaic.Lib.ValueIdx

noncomputable section

namespace Cert.Attn

open Idealize.ShloMosaic Idealize.ShloMosaic.ValueIdx

/-- Where a row's maximum starts: the value of the f32 word of −∞. -/
abbrev seed : EReal := Ideal.ofBits .f32 0xFF800000#32

/-- One row of logits: the row `x` against every column of `W`. -/
def logit (x : Fin 1024 → EReal) (W : Fin 1024 → Fin 1024 → EReal) (e : Fin 1024) : EReal :=
  ∑ d : Fin 1024, x d * W d e

/-- A row's maximum, folded from the seed. -/
def rowMax (f : Fin 1024 → EReal) : EReal := (Finset.univ : Finset (Fin 1024)).fold max seed f

/-- The exponential of a row shifted by its maximum. -/
def shifted (f : Fin 1024 → EReal) (e : Fin 1024) : EReal := Ideal.exp (f e - rowMax f)

/-- The softmax of a row: each shifted exponential over their sum. -/
def soft (f : Fin 1024 → EReal) (e : Fin 1024) : EReal := Ideal.div (shifted f e) (∑ k : Fin 1024, shifted f k)

/-- A row of attention: the softmax of its logits. -/
def attnRow (x : Fin 1024 → EReal) (W : Fin 1024 → Fin 1024 → EReal) : Fin 1024 → EReal := soft (logit x W)

/-- A row of attention contracted with a row of the other input. -/
def mix (a y : Fin 1024 → EReal) : EReal := ∑ d : Fin 1024, a d * y d

/-- The seed is below every row maximum: a fold of `max` never goes below where it starts. -/
theorem seed_le_rowMax (f : Fin 1024 → EReal) : seed ≤ rowMax f :=
  (Finset.le_fold_max _).mpr (Or.inl le_rfl)

/-- So taking the maximum with the seed once more changes nothing. -/
theorem max_seed_rowMax (f : Fin 1024 → EReal) : max seed (rowMax f) = rowMax f :=
  max_eq_right (seed_le_rowMax f)

/-- The attention array `[8, 2048, 1024]`: entry `(b, t, e)` is entry `e` of the softmax of row `(b, t)`'s logits. -/
def attention (x1 : (⟨3, ![8, 2048, 1024]⟩ : Shape).Idx → EReal) (W : (⟨2, ![1024, 1024]⟩ : Shape).Idx → EReal) :
    (⟨3, ![8, 2048, 1024]⟩ : Shape).Idx → EReal :=
  fun i => attnRow (fun d => x1 (ix3 (i 0) (i 1) d)) (fun d e => W (ix2 d e)) (i 2)

/-- The weighted sum `[8, 2048, 2048]`: entry `(b, t, s)` contracts attention row `(b, t)` with row `(b, s)` of `x0`. -/
def weighted (x0 x1 : (⟨3, ![8, 2048, 1024]⟩ : Shape).Idx → EReal) (W : (⟨2, ![1024, 1024]⟩ : Shape).Idx → EReal) :
    (⟨3, ![8, 2048, 2048]⟩ : Shape).Idx → EReal :=
  fun i => mix (attnRow (fun d => x1 (ix3 (i 0) (i 1) d)) (fun d e => W (ix2 d e))) (fun d => x0 (ix3 (i 0) (i 2) d))

/-- The same attention formula on one grid point's block: 512 rows of one batch entry. -/
def attentionBlock (xb : (⟨3, ![1, 512, 1024]⟩ : Shape).Idx → EReal) (W : (⟨2, ![1024, 1024]⟩ : Shape).Idx → EReal) :
    (⟨3, ![1, 512, 1024]⟩ : Shape).Idx → EReal :=
  fun y => attnRow (fun d => xb (ix3 (0 : Fin 1) (y 1) d)) (fun d e => W (ix2 d e)) (y 2)

/-- The same weighted-sum formula on one grid point's blocks: its 512 attention rows against the batch entry's 2048
    rows of the other input. -/
def weightedBlock (xb : (⟨3, ![1, 512, 1024]⟩ : Shape).Idx → EReal) (W : (⟨2, ![1024, 1024]⟩ : Shape).Idx → EReal)
    (x0b : (⟨3, ![1, 2048, 1024]⟩ : Shape).Idx → EReal) : (⟨3, ![1, 512, 2048]⟩ : Shape).Idx → EReal :=
  fun y => mix (attnRow (fun d => xb (ix3 (0 : Fin 1) (y 1) d)) (fun d e => W (ix2 d e))) (fun d => x0b (ix3 (0 : Fin 1) (y 2) d))

end Cert.Attn

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  The kernel body's arithmetic, read at an index, on the extended reals.

  One grid point holds 512 rows of the first input (a block `[1, 512, 1024]`), the whole weight matrix, and — in a
  scratch buffer — the 2048 rows of the other input for the same batch entry. The body forms the 512 × 1024 logits by
  a matrix product into a zero accumulator, takes each row's maximum and broadcasts it down the row, exponentiates the
  shifted logits, sums each row and broadcasts the sum, and divides: that is the softmax of each row. It stores those
  rows, and stores their products with the 2048 scratch rows (a contraction over the 1024 columns of both).
  A change of float format is the identity here, so the casts to the 16-bit format drop out.

  The row maximum and the row sum are named (`maxCol`, `sumCol`) so that each is read at an index once, over a
  variable block.
-/
import proofs.«161001_j82635170775524_2_alg».proof.Proof.Gen.KernelIdeal.Skeleton
import proofs.«161001_j82635170775524_2_alg».proof.Proof.Spec
import proofs.«161001_j82635170775524_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open Cert.Attn

/-! ## The two matrix products' operand indices -/

/-- The first product, `[512, 1024] × [1024, 1024]`: at output `(r, e)` and contraction position `q` the left operand is
    read at `(r, q)` and the right at `(q, e)`. -/
abbrev D1 : DotDims S512x1024 S1024x1024 S512x1024 := dot_S512x1024_S1024x1024_S512x1024_1_0_0_1_n_n
/-- The second product, `[512, 1024] × [2048, 1024]` contracted over the columns of both: at output `(r, s)` the left
    operand is read at `(r, q)` and the right at `(s, q)`. -/
abbrev D2 : DotDims S512x1024 S2048x1024 S512x2048 := dot_S512x1024_S2048x1024_S512x2048_1_1_0_0_n_n

theorem lhs1_0 (i : S512x1024.Idx) (q : D1.contr.Idx) : (D1.lhsIdx i q 0).val = (i 0).val := by
  unfold DotDims.lhsIdx
  rw [dif_neg (show ¬(0 : Fin S512x1024.rank) ∈ D1.lhsBatch by decide), dif_pos (show (0 : Fin S512x1024.rank) ∈ D1.lhsNonContracting by decide)]
  rfl
theorem lhs1_1 (i : S512x1024.Idx) (q : D1.contr.Idx) : (D1.lhsIdx i q 1).val = (q ⟨0, by decide⟩).val :=
  D1.lhsIdx_val_of_single rfl i q
theorem rhs1_0 (i : S512x1024.Idx) (q : D1.contr.Idx) : (D1.rhsIdx i q 0).val = (q ⟨0, by decide⟩).val :=
  D1.rhsIdx_val_of_single rfl i q
theorem rhs1_1 (i : S512x1024.Idx) (q : D1.contr.Idx) : (D1.rhsIdx i q 1).val = (i 1).val := by
  unfold DotDims.rhsIdx
  rw [dif_neg (show ¬(1 : Fin S1024x1024.rank) ∈ D1.rhsBatch by decide), dif_pos (show (1 : Fin S1024x1024.rank) ∈ D1.rhsNonContracting by decide)]
  rfl

theorem lhs2_0 (i : S512x2048.Idx) (q : D2.contr.Idx) : (D2.lhsIdx i q 0).val = (i 0).val := by
  unfold DotDims.lhsIdx
  rw [dif_neg (show ¬(0 : Fin S512x1024.rank) ∈ D2.lhsBatch by decide), dif_pos (show (0 : Fin S512x1024.rank) ∈ D2.lhsNonContracting by decide)]
  rfl
theorem lhs2_1 (i : S512x2048.Idx) (q : D2.contr.Idx) : (D2.lhsIdx i q 1).val = (q ⟨0, by decide⟩).val :=
  D2.lhsIdx_val_of_single rfl i q
theorem rhs2_0 (i : S512x2048.Idx) (q : D2.contr.Idx) : (D2.rhsIdx i q 0).val = (i 1).val := by
  unfold DotDims.rhsIdx
  rw [dif_neg (show ¬(0 : Fin S2048x1024.rank) ∈ D2.rhsBatch by decide), dif_pos (show (0 : Fin S2048x1024.rank) ∈ D2.rhsNonContracting by decide)]
  rfl
theorem rhs2_1 (i : S512x2048.Idx) (q : D2.contr.Idx) : (D2.rhsIdx i q 1).val = (q ⟨0, by decide⟩).val :=
  D2.rhsIdx_val_of_single rfl i q

/-- The first product into the zero accumulator, at `(r, e)`: the sum over the shared axis. -/
theorem matmul1_apply (l : FVec Ideal S512x1024 .bf16) (w : FVec Ideal S1024x1024 .bf16) (r : Fin 512) (e : Fin 1024) :
    matmul D1 none l w (constant (F := Ideal) S512x1024 .f32 0x00000000#32) (ix2 r e)
      = ∑ k : Fin 1024, l (ix2 r k) * w (ix2 k e) := by
  simp only [matmul]
  rw [Ideal.matmul_constant_zero_apply, ← Equiv.sum_comp (contrEquiv1 D1 1024 rfl rfl).symm]
  refine Finset.sum_congr rfl fun k _ => ?_
  have hk := contrEquiv1_symm_val D1 1024 rfl rfl k
  have el : D1.lhsIdx (ix2 r e) ((contrEquiv1 D1 1024 rfl rfl).symm k) = ix2 r k := funext fun a => Fin.ext (by
    match a with
    | ⟨0, _⟩ => exact lhs1_0 _ _
    | ⟨1, _⟩ => exact (lhs1_1 _ _).trans hk)
  have er : D1.rhsIdx (ix2 r e) ((contrEquiv1 D1 1024 rfl rfl).symm k) = ix2 k e := funext fun a => Fin.ext (by
    match a with
    | ⟨0, _⟩ => exact (rhs1_0 _ _).trans hk
    | ⟨1, _⟩ => exact rhs1_1 _ _)
  rw [el, er]

/-- The second product into the zero accumulator, at `(r, s)`: row `r` of the left against row `s` of the right. -/
theorem matmul2_apply (l : FVec Ideal S512x1024 .bf16) (w : FVec Ideal S2048x1024 .bf16) (r : Fin 512) (s : Fin 2048) :
    matmul D2 none l w (constant (F := Ideal) S512x2048 .f32 0x00000000#32) (ix2 r s)
      = ∑ k : Fin 1024, l (ix2 r k) * w (ix2 s k) := by
  simp only [matmul]
  rw [Ideal.matmul_constant_zero_apply, ← Equiv.sum_comp (contrEquiv1 D2 1024 rfl rfl).symm]
  refine Finset.sum_congr rfl fun k _ => ?_
  have hk := contrEquiv1_symm_val D2 1024 rfl rfl k
  have el : D2.lhsIdx (ix2 r s) ((contrEquiv1 D2 1024 rfl rfl).symm k) = ix2 r k := funext fun a => Fin.ext (by
    match a with
    | ⟨0, _⟩ => exact lhs2_0 _ _
    | ⟨1, _⟩ => exact (lhs2_1 _ _).trans hk)
  have er : D2.rhsIdx (ix2 r s) ((contrEquiv1 D2 1024 rfl rfl).symm k) = ix2 s k := funext fun a => Fin.ext (by
    match a with
    | ⟨0, _⟩ => exact rhs2_0 _ _
    | ⟨1, _⟩ => exact (rhs2_1 _ _).trans hk)
  rw [el, er]

/-! ## The named stages of the body -/

/-- The logits of the point's 512 rows. -/
def logitsBlk (v3 : Vec Ideal S1x512x1024 .f32) (v6 : Vec Ideal S1024x1024 .f32) : FVec Ideal S512x1024 .f32 :=
  matmul D1 none (truncf .bf16 (shapeCast S512x1024 v3 shapeCasts_S1x512x1024_S512x1024) bitsLt_bf16_f32)
    (truncf .bf16 v6 bitsLt_bf16_f32) (constant S512x1024 .f32 0x00000000#32)

/-- Each row's maximum, repeated along the row. -/
def maxCol (v : FVec Ideal S512x1024 .f32) : FVec Ideal S512x1024 .f32 :=
  broadcastTo S512x1024 (shapeCast S512x1 (multiReduction .maximumf [1] S512 v 0xFF800000#32 reduces_S512x1024_S512 (.inl rfl) rfl)
    shapeCasts_S512_S512x1) broadcasts_S512x1_S512x1024

/-- Each row's sum, repeated along the row. -/
def sumCol (v : FVec Ideal S512x1024 .f32) : FVec Ideal S512x1024 .f32 :=
  broadcastTo S512x1024 (shapeCast S512x1 (multiReduction .add [1] S512 v 0x00000000#32 reduces_S512x1024_S512 (.inl rfl) rfl)
    shapeCasts_S512_S512x1) broadcasts_S512x1_S512x1024

/-- The softmax payload is these stages composed. -/
theorem pay2_eq (v3 : Vec Ideal S1x512x1024 .f32) (v6 : Vec Ideal S1024x1024 .f32) :
    k0_pay2 (F := Ideal) v3 v6
      = divf (exp (subf (logitsBlk v3 v6) (maxCol (logitsBlk v3 v6))))
          (sumCol (exp (subf (logitsBlk v3 v6) (maxCol (logitsBlk v3 v6))))) := rfl

/-- Inserting coordinate `k` on the reduced axis at row `r` gives `(r, k)`. -/
theorem lift_eq (r : Fin 512) (k : Fin 1024) : reduces_S512x1024_S512.lift (ix1 r) k = ix2 r k :=
  funext fun a => Fin.ext (by match a with | ⟨0, _⟩ => rfl | ⟨1, _⟩ => rfl)

theorem logitsBlk_apply (v3 : Vec Ideal S1x512x1024 .f32) (v6 : Vec Ideal S1024x1024 .f32) (r : Fin 512) (e : Fin 1024) :
    logitsBlk v3 v6 (ix2 r e) = logit (fun d => v3 (ix3 (0 : Fin 1) r d)) (fun d e => v6 (ix2 d e)) e := by
  unfold logitsBlk
  rw [matmul1_apply]
  unfold logit
  refine Finset.sum_congr rfl fun k _ => ?_
  rw [truncf_apply, truncf_apply, shapeCast_1ab_ab_apply]

theorem maxCol_apply (v : FVec Ideal S512x1024 .f32) (r : Fin 512) (e : Fin 1024) :
    maxCol v (ix2 r e) = rowMax (fun k => v (ix2 r k)) := by
  unfold maxCol
  rw [Cert.Keepdims.broadcastTo_a1_ab_apply, Cert.Keepdims.shapeCast_a_a1_apply]
  refine (Ideal.multiReduction_maximumf_single v 0xFF800000#32 reduces_S512x1024_S512 (.inl rfl) rfl (ix1 r)).trans ?_
  unfold rowMax
  show (Finset.univ : Finset (Fin 1024)).fold max seed (fun k : Fin 1024 => v (reduces_S512x1024_S512.lift (ix1 r) k)) = _
  exact Finset.fold_congr fun k _ => by rw [lift_eq]

theorem sumCol_apply (v : FVec Ideal S512x1024 .f32) (r : Fin 512) (e : Fin 1024) :
    sumCol v (ix2 r e) = ∑ k : Fin 1024, v (ix2 r k) := by
  unfold sumCol
  rw [Cert.Keepdims.broadcastTo_a1_ab_apply, Cert.Keepdims.shapeCast_a_a1_apply]
  refine (Ideal.multiReduction_add_single v 0x00000000#32 reduces_S512x1024_S512 (.inl rfl) rfl (ix1 r)).trans ?_
  show ∑ k : Fin 1024, v (reduces_S512x1024_S512.lift (ix1 r) k) = _
  exact Finset.sum_congr rfl fun k _ => by rw [lift_eq]

/-! ## The payloads at an index -/

/-- The shifted exponential of the point's rows at `(r, e)`. -/
theorem shifted_apply (v3 : Vec Ideal S1x512x1024 .f32) (v6 : Vec Ideal S1024x1024 .f32) (r : Fin 512) (e : Fin 1024) :
    exp (subf (logitsBlk v3 v6) (maxCol (logitsBlk v3 v6))) (ix2 r e)
      = shifted (logit (fun d => v3 (ix3 (0 : Fin 1) r d)) (fun d e => v6 (ix2 d e))) e := by
  show Ideal.exp (logitsBlk v3 v6 (ix2 r e) - maxCol (logitsBlk v3 v6) (ix2 r e)) = _
  rw [maxCol_apply, logitsBlk_apply]
  unfold shifted
  refine congrArg (fun μ => Ideal.exp (_ - μ)) (congrArg rowMax (funext fun k => ?_))
  rw [logitsBlk_apply]

/-- The softmax payload at `(r, e)`: entry `e` of the softmax of row `r`'s logits. -/
theorem pay2_apply (v3 : Vec Ideal S1x512x1024 .f32) (v6 : Vec Ideal S1024x1024 .f32) (r : Fin 512) (e : Fin 1024) :
    k0_pay2 (F := Ideal) v3 v6 (ix2 r e) = attnRow (fun d => v3 (ix3 (0 : Fin 1) r d)) (fun d e => v6 (ix2 d e)) e := by
  rw [pay2_eq]
  show Ideal.div (exp (subf (logitsBlk v3 v6) (maxCol (logitsBlk v3 v6))) (ix2 r e))
      (sumCol (exp (subf (logitsBlk v3 v6) (maxCol (logitsBlk v3 v6)))) (ix2 r e)) = _
  rw [sumCol_apply, shifted_apply]
  unfold attnRow soft
  refine congrArg (Ideal.div _) (Finset.sum_congr rfl fun k _ => ?_)
  rw [shifted_apply]

/-- The stored attention block is the block formula. -/
theorem pay3_eq (v3 : Vec Ideal S1x512x1024 .f32) (v6 : Vec Ideal S1024x1024 .f32) :
    k0_pay3 (F := Ideal) v3 v6 = attentionBlock v3 v6 := by
  funext y
  obtain ⟨u, r, e, rfl⟩ : ∃ (u : Fin 1) (r : Fin 512) (e : Fin 1024), y = ix3 u r e := ⟨y 0, y 1, y 2, eq_ix3 y⟩
  unfold k0_pay3
  rw [shapeCast_ab_1ab_apply, pay2_apply]
  rfl

/-- The scratch payload at `(s, d)`: the other input's block at `(0, s, d)`. -/
theorem pay1_apply (v27 : Vec Ideal S1x2048x1024 .f32) (s : Fin 2048) (d : Fin 1024) :
    k0_pay1 (F := Ideal) v27 (ix2 s d) = v27 (ix3 (0 : Fin 1) s d) := by
  unfold k0_pay1
  rw [shapeCast_self, truncf_apply, shapeCast_1ab_ab_apply]

/-- The stored weighted-sum block, when the scratch holds the other input's block, is the block formula. -/
theorem pay4_eq (v3 : Vec Ideal S1x512x1024 .f32) (v6 : Vec Ideal S1024x1024 .f32) (v27 : Vec Ideal S1x2048x1024 .f32) :
    k0_pay4 (F := Ideal) v3 v6 (k0_pay1 v27) = weightedBlock v3 v6 v27 := by
  funext y
  obtain ⟨u, r, s, rfl⟩ : ∃ (u : Fin 1) (r : Fin 512) (s : Fin 2048), y = ix3 u r s := ⟨y 0, y 1, y 2, eq_ix3 y⟩
  unfold k0_pay4
  rw [shapeCast_ab_1ab_apply, matmul2_apply]
  show _ = mix (attnRow (fun d => v3 (ix3 (0 : Fin 1) r d)) (fun d e => v6 (ix2 d e))) (fun d => v27 (ix3 (0 : Fin 1) s d))
  unfold mix
  refine Finset.sum_congr rfl fun k _ => ?_
  rw [truncf_apply, pay2_apply, pay1_apply]

end Cert.KernelIdeal.Payload

end
-- ==== Proof.Pieces.lean ====
/-
  What each control case of the kernel body leaves behind, as the body's own arithmetic of what it loaded.

  At the first grid point of a batch entry (case A) the body first copies the other input's block into the scratch
  buffer, so the scratch ends holding that copy, and the weighted-sum block is computed from the copy just stored. At the
  other points (case B) the scratch is left as the point before left it, and the weighted-sum block is computed from it.
  In both cases the attention block is the softmax of the point's logits. Each statement holds at any float instance:
  a buffer written by one store that covers it reads back as that store's value, and a load of a whole buffer reads
  what it holds.
-/
import proofs.«161001_j82635170775524_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A leaves in the scratch the copy of the other input's block. -/
theorem scratch_A (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x2048x1024 .f32) (harg4 : arg4.IsWhole) (arg5 : Memref sig .tc .vmem S1x512x2048 .f32) (harg5 : arg5.IsWhole) (arg6 : Memref sig .tc .vmem S1x512x1024 .f32) (harg6 : arg6.IsWhole) (arg7 : Memref sig .tc .vmem S2048x1024 .bf16) (harg7 : arg7.IsWhole) (hc0 : cond0_0 i) (x0 : Vec F S1x512x1024 .f32) (x1 : Vec F S1024x1024 .f32) (x2 : Vec F S1x2048x1024 .f32) :
    sout0_A_0 c i arg2 harg2 arg3 harg3 arg4 harg4 arg5 harg5 arg6 harg6 arg7 harg7 hc0 x0 x1 x2 = k0_pay1 x2 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg4.read_unread, View.ld_unit_zero (S := S1x2048x1024) hz3]

/-- Case A's attention block: the softmax payload of the point's rows. -/
theorem attn_A (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x2048x1024 .f32) (harg4 : arg4.IsWhole) (arg5 : Memref sig .tc .vmem S1x512x2048 .f32) (harg5 : arg5.IsWhole) (arg6 : Memref sig .tc .vmem S1x512x1024 .f32) (harg6 : arg6.IsWhole) (arg7 : Memref sig .tc .vmem S2048x1024 .bf16) (harg7 : arg7.IsWhole) (hc0 : cond0_0 i) (x0 : Vec F S1x512x1024 .f32) (x1 : Vec F S1024x1024 .f32) (x2 : Vec F S1x2048x1024 .f32) :
    out0_A_4 c i arg2 harg2 arg3 harg3 arg4 harg4 arg5 harg5 arg6 harg6 arg7 harg7 hc0 x0 x1 x2 = k0_pay3 x0 x1 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_unit_zero hz3]
  simp only [View.readAt_eq_ld, harg2.read_unread, harg3.read_unread, View.ld_unit_zero (S := S1x512x1024) hz3,
    View.ld_unit_zero (S := S1024x1024) hz2]

/-- Case A's weighted-sum block: the contraction payload against the copy just stored. -/
theorem wsum_A (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x2048x1024 .f32) (harg4 : arg4.IsWhole) (arg5 : Memref sig .tc .vmem S1x512x2048 .f32) (harg5 : arg5.IsWhole) (arg6 : Memref sig .tc .vmem S1x512x1024 .f32) (harg6 : arg6.IsWhole) (arg7 : Memref sig .tc .vmem S2048x1024 .bf16) (harg7 : arg7.IsWhole) (hc0 : cond0_0 i) (x0 : Vec F S1x512x1024 .f32) (x1 : Vec F S1024x1024 .f32) (x2 : Vec F S1x2048x1024 .f32) :
    out0_A_3 c i arg2 harg2 arg3 harg3 arg4 harg4 arg5 harg5 arg6 harg6 arg7 harg7 hc0 x0 x1 x2 = k0_pay4 x0 x1 (k0_pay1 x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz3, View.readCov_unit_zero (S := S2048x1024) _ hz2]
  simp only [View.readAt_eq_ld, harg2.read_unread, harg3.read_unread, harg4.read_unread, View.ld_unit_zero (S := S1x512x1024) hz3,
    View.ld_unit_zero (S := S1024x1024) hz2, View.ld_unit_zero (S := S1x2048x1024) hz3]

/-- Case B's attention block: the softmax payload of the point's rows. -/
theorem attn_B (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x2048x1024 .f32) (harg4 : arg4.IsWhole) (arg5 : Memref sig .tc .vmem S1x512x2048 .f32) (harg5 : arg5.IsWhole) (arg6 : Memref sig .tc .vmem S1x512x1024 .f32) (harg6 : arg6.IsWhole) (arg7 : Memref sig .tc .vmem S2048x1024 .bf16) (harg7 : arg7.IsWhole) (hc0 : ¬cond0_0 i) (x0 : Vec F S1x512x1024 .f32) (x1 : Vec F S1024x1024 .f32) (x2 : Vec F S1x2048x1024 .f32) (xs0 : Vec F S2048x1024 .bf16) :
    out0_B_4 c i arg2 harg2 arg3 harg3 arg4 harg4 arg5 harg5 arg6 harg6 arg7 harg7 hc0 x0 x1 x2 xs0 = k0_pay3 x0 x1 := by
  unfold out0_B_4
  rw [View.read_writes_eq_canon _ _ _ (cover0_B_4 c i arg2 harg2 arg3 harg3 arg4 harg4 arg5 harg5 arg6 harg6 arg7 harg7 hc0 x0 x1 x2 xs0)]
  unfold kernelRun0_B
  dsimp only
  rw [View.canon_unit_zero hz3]
  simp only [View.readAt_eq_ld, harg2.read_unread, harg3.read_unread, View.ld_unit_zero (S := S1x512x1024) hz3,
    View.ld_unit_zero (S := S1024x1024) hz2]

/-- Case B's weighted-sum block: the contraction payload against what the scratch held. -/
theorem wsum_B (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x2048x1024 .f32) (harg4 : arg4.IsWhole) (arg5 : Memref sig .tc .vmem S1x512x2048 .f32) (harg5 : arg5.IsWhole) (arg6 : Memref sig .tc .vmem S1x512x1024 .f32) (harg6 : arg6.IsWhole) (arg7 : Memref sig .tc .vmem S2048x1024 .bf16) (harg7 : arg7.IsWhole) (hc0 : ¬cond0_0 i) (x0 : Vec F S1x512x1024 .f32) (x1 : Vec F S1024x1024 .f32) (x2 : Vec F S1x2048x1024 .f32) (xs0 : Vec F S2048x1024 .bf16) :
    out0_B_3 c i arg2 harg2 arg3 harg3 arg4 harg4 arg5 harg5 arg6 harg6 arg7 harg7 hc0 x0 x1 x2 xs0 = k0_pay4 x0 x1 xs0 := by
  unfold out0_B_3
  rw [View.read_writes_eq_canon _ _ _ (cover0_B_3 c i arg2 harg2 arg3 harg3 arg4 harg4 arg5 harg5 arg6 harg6 arg7 harg7 hc0 x0 x1 x2 xs0)]
  unfold kernelRun0_B
  dsimp only
  rw [View.canon_unit_zero hz3]
  simp only [View.readAt_eq_ld, harg2.read_unread, harg3.read_unread, harg7.read_unread, View.ld_unit_zero (S := S1x512x1024) hz3,
    View.ld_unit_zero (S := S1024x1024) hz2, View.ld_unit_zero (S := S2048x1024) hz2]

end Cert.KernelIdeal.Pieces

end
-- ==== Proof.Blocks.lean ====
/-
  Where each grid point's blocks sit in their arrays.

  The grid has 32 points; point `t` works on batch entry `t / 4` and on the row tile `t % 4` (512 rows each). The first
  input's block and both output blocks at `t` are rows `512 · (t % 4) …` of batch entry `t / 4`; the weight matrix is one
  block; the other input's block is all 2048 rows of batch entry `t / 4`, so it is the same block at the four points of
  one batch entry. An element of a block sits in the array at block index × block size + its coordinate in the block.
-/
import proofs.«161001_j82635170775524_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps, decided once over the 32 grid points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

theorem N_eq : cfg0.N = 32 := N_0

/-- Row `r` of the first input's block at `t` is row `512 · (t % 4) + r` of batch entry `t / 4`. -/
theorem x1blk_apply (c : Dev nD) (t : Fin cfg0.N) (r : Fin 512) (d : Fin 1024) (b : Fin 8) (row : Fin 2048)
    (hb : b.val = t.val / 4) (hrow : row.val = 512 * (t.val % 4) + r.val) :
    (iblk m c 0 t : Vec F S1x512x1024 .f32) (ix3 (0 : Fin 1) r d) = V m c main_arg1 (ix3 b row d) := by
  obtain ⟨e0, e1, e2, -⟩ := idx_facts t
  show V m c main_arg1 (((cfg0.win 0).blk t).view.emb (ix3 (0 : Fin 1) r d)) = _
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * r.val = row.val; omega
  | ⟨2, _⟩ => show win0_0.index t (2 : Fin 3) * 1024 + 1 * d.val = d.val; omega

/-- The weight matrix's block at any point is the whole matrix. -/
theorem wblk_apply (c : Dev nD) (t : Fin cfg0.N) (d e : Fin 1024) :
    (iblk m c 1 t : Vec F S1024x1024 .f32) (ix2 d e) = V m c main_arg2 (ix2 d e) := by
  obtain ⟨-, -, -, e0, e1, -⟩ := idx_facts t
  show V m c main_arg2 (((cfg0.win 1).blk t).view.emb (ix2 d e)) = _
  refine congrArg _ (funext fun a => Fin.ext ?_)
  match a with
  | ⟨0, _⟩ => show win0_1.index t (0 : Fin 2) * 1024 + 1 * d.val = d.val; omega
  | ⟨1, _⟩ => show win0_1.index t (1 : Fin 2) * 1024 + 1 * e.val = e.val; omega

/-- Row `s` of the other input's block at `t` is row `s` of batch entry `t / 4`. -/
theorem x0blk_apply (c : Dev nD) (t : Fin cfg0.N) (s : Fin 2048) (d : Fin 1024) (b : Fin 8) (hb : b.val = t.val / 4) :
    (iblk m c 2 t : Vec F S1x2048x1024 .f32) (ix3 (0 : Fin 1) s d) = V m c main_arg0 (ix3 b s d) := by
  obtain ⟨-, -, -, -, -, e0, e1, e2, -⟩ := idx_facts t
  show V m c main_arg0 (((cfg0.win 2).blk t).view.emb (ix3 (0 : Fin 1) s d)) = _
  refine congrArg _ (funext fun a => Fin.ext ?_)
  match a with
  | ⟨0, _⟩ => show win0_2.index t (0 : Fin 3) * 1 + 1 * 0 = b.val; omega
  | ⟨1, _⟩ => show win0_2.index t (1 : Fin 3) * 2048 + 1 * s.val = s.val; omega
  | ⟨2, _⟩ => show win0_2.index t (2 : Fin 3) * 1024 + 1 * d.val = d.val; omega

/-- So the other input's block is one and the same at two points of one batch entry. -/
theorem x0blk_congr (c : Dev nD) (t t' : Fin cfg0.N) (h : t.val / 4 = t'.val / 4) :
    (iblk m c 2 t : Vec F S1x2048x1024 .f32) = (iblk m c 2 t' : Vec F S1x2048x1024 .f32) := by
  have hN : t.val < 32 := lt_of_lt_of_eq t.isLt N_eq
  funext y
  obtain ⟨u, s, d, rfl⟩ : ∃ (u : Fin 1) (s : Fin 2048) (d : Fin 1024), y = ix3 u s d := ⟨y 0, y 1, y 2, eq_ix3 y⟩
  obtain rfl : u = 0 := Subsingleton.elim _ _
  rw [x0blk_apply m c t s d ⟨t.val / 4, by omega⟩ rfl, x0blk_apply m c t' s d ⟨t.val / 4, by omega⟩ h]

/-- The array index of element `y` of a 512-row block of width `n` at point `t`. -/
def rowIdx {n : ℕ} (t : Fin cfg0.N) (y : (⟨3, ![1, 512, n]⟩ : Shape).Idx) : (⟨3, ![8, 2048, n]⟩ : Shape).Idx :=
  ix3 ⟨t.val / 4, by have := lt_of_lt_of_eq t.isLt N_eq; omega⟩
    ⟨512 * (t.val % 4) + (y 1).val, by have : (y 1).val < 512 := (y 1).isLt; omega⟩ (y 2)

/-- Element `j` of the attention block at `t` sits at `rowIdx t j`. -/
theorem emb4_eq (t : Fin cfg0.N) (j : S1x512x1024.Idx) : ((cfg0.win 4).blk t).view.emb j = rowIdx t j := by
  obtain ⟨-, -, -, -, -, -, -, -, -, -, -, e0, e1, e2⟩ := idx_facts t
  have h0 : (j 0).val < 1 := (j 0).isLt
  refine funext fun a => Fin.ext ?_
  match a with
  | ⟨0, _⟩ => show win0_4.index t (0 : Fin 3) * 1 + 1 * (j 0).val = t.val / 4; omega
  | ⟨1, _⟩ => show win0_4.index t (1 : Fin 3) * 512 + 1 * (j 1).val = 512 * (t.val % 4) + (j 1).val; omega
  | ⟨2, _⟩ => show win0_4.index t (2 : Fin 3) * 1024 + 1 * (j 2).val = (j 2).val; omega

/-- Element `j` of the weighted-sum block at `t` sits at `rowIdx t j`. -/
theorem emb3_eq (t : Fin cfg0.N) (j : S1x512x2048.Idx) : ((cfg0.win 3).blk t).view.emb j = rowIdx t j := by
  obtain ⟨-, -, -, -, -, -, -, -, e0, e1, e2, -⟩ := idx_facts t
  have h0 : (j 0).val < 1 := (j 0).isLt
  refine funext fun a => Fin.ext ?_
  match a with
  | ⟨0, _⟩ => show win0_3.index t (0 : Fin 3) * 1 + 1 * (j 0).val = t.val / 4; omega
  | ⟨1, _⟩ => show win0_3.index t (1 : Fin 3) * 512 + 1 * (j 1).val = 512 * (t.val % 4) + (j 1).val; omega
  | ⟨2, _⟩ => show win0_3.index t (2 : Fin 3) * 2048 + 1 * (j 2).val = (j 2).val; omega

/-- An index of the attention array is in point `t`'s block iff each coordinate is in the block's range. -/
theorem mem_blk4 (t : Fin cfg0.N) (i : S8x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v0_1).slice (win0_4.rect t)).set ↔ _
  rw [View.set_slice_whole, Rect.mem_set_unit]
  exact Iff.rfl

/-- The same for the weighted-sum array. -/
theorem mem_blk3 (t : Fin cfg0.N) (i : S8x2048x2048.Idx) :
    i ∈ ((cfg0.win 3).blk t).view.set ↔ ∀ a : Fin 3, win0_3.index t a * S1x512x2048.size a ≤ (i a).val ∧ (i a).val < win0_3.index t a * S1x512x2048.size a + S1x512x2048.size a := by
  show i ∈ ((View.whole main_v0_0).slice (win0_3.rect t)).set ↔ _
  rw [View.set_slice_whole, Rect.mem_set_unit]
  exact Iff.rfl

/-- Every index of the attention array is in the block of the point of its batch entry and row tile. -/
theorem cover4 (i : S8x2048x1024.Idx) : ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 1024 := (i 2).isLt
  refine ⟨⟨4 * (i 0).val + (i 1).val / 512, by rw [N_eq]; omega⟩, flush0_4 _, ?_⟩
  rw [mem_blk4]
  obtain ⟨-, -, -, -, -, -, -, -, -, -, -, e0, e1, e2⟩ := idx_facts ⟨4 * (i 0).val + (i 1).val / 512, by rw [N_eq]; omega⟩
  dsimp only at e0 e1 e2
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 512 ≤ (i 1).val ∧ (i 1).val < win0_4.index _ (1 : Fin 3) * 512 + 512; omega
  | ⟨2, _⟩ => show win0_4.index _ (2 : Fin 3) * 1024 ≤ (i 2).val ∧ (i 2).val < win0_4.index _ (2 : Fin 3) * 1024 + 1024; omega

/-- Every index of the weighted-sum array likewise. -/
theorem cover3 (i : S8x2048x2048.Idx) : ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 2048 := (i 2).isLt
  refine ⟨⟨4 * (i 0).val + (i 1).val / 512, by rw [N_eq]; omega⟩, flush0_3 _, ?_⟩
  rw [mem_blk3]
  obtain ⟨-, -, -, -, -, -, -, -, e0, e1, e2, -⟩ := idx_facts ⟨4 * (i 0).val + (i 1).val / 512, by rw [N_eq]; omega⟩
  dsimp only at e0 e1 e2
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 512 ≤ (i 1).val ∧ (i 1).val < win0_3.index _ (1 : Fin 3) * 512 + 512; omega
  | ⟨2, _⟩ => show win0_3.index _ (2 : Fin 3) * 2048 ≤ (i 2).val ∧ (i 2).val < win0_3.index _ (2 : Fin 3) * 2048 + 2048; omega

end Cert.KernelIdeal.Blocks

end
-- ==== Proof.Carried.lean ====
/-
  What every grid point leaves, by induction along the grid.

  After point `t` the scratch holds the copy of the other input's block for `t`'s batch entry: at the first point of a
  batch entry the body has just stored it; at a later point the body leaves the scratch alone, the point before (of the
  same batch entry) left the copy there, and the block is the same at both points. Hence at every point the attention
  block is the softmax payload of the point's rows, and the weighted-sum block is the contraction payload of those rows
  against that copy.
-/
import proofs.«161001_j82635170775524_2_alg».proof.Proof.Pieces
import proofs.«161001_j82635170775524_2_alg».proof.Proof.Blocks

noncomputable section

namespace Cert.KernelIdeal.Carried

open Cert.KernelIdeal Cert.KernelIdeal.Gen Idealize.ShloMosaic Idealize.ShloMosaic.TcCoe Idealize.SL.Sem
open Cert.KernelIdeal.Pieces Cert.KernelIdeal.Blocks

variable {F : FTy → Type} [FloatOps F]
variable (m : (ℓ : Loc nD τ sig) → Buf (Elt F) ℓ)

/-- The payloads of point `t`'s blocks: the weighted-sum block, the attention block, the scratch's copy. -/
abbrev paysAt (c : Dev nD) (t : Fin cfg0.N) : Vec F S1x512x2048 .f32 × Vec F S1x512x1024 .f32 × Vec F S2048x1024 .bf16 :=
  (k0_pay4 (iblk m c 0 t) (iblk m c 1 t) (k0_pay1 (iblk m c 2 t)), k0_pay3 (iblk m c 0 t) (iblk m c 1 t), k0_pay1 (iblk m c 2 t))

/-- At the first point of a batch entry. -/
theorem at_first (c : Dev nD) (t : Fin cfg0.N) (h0 : t.val % 4 = 0) : outsAt0 m c t.val t.isLt = paysAt m c t :=
  (outsAt0_A m c t h0).trans (congrArg₂ Prod.mk
    (wsum_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t))
    (congrArg₂ Prod.mk
      (attn_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t))
      (scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t))))

/-- At a later point of a batch entry, given that the point before left the copy in the scratch. -/
theorem at_later (c : Dev nD) (t : Fin cfg0.N) (h0 : ¬t.val % 4 = 0)
    (hprev : (outsAt0 m c (t.val - 1) (Nat.lt_of_le_of_lt (Nat.sub_le _ _) t.isLt)).2.2 = k0_pay1 (iblk m c 2 t)) :
    outsAt0 m c t.val t.isLt = paysAt m c t :=
  (outsAt0_B m c t h0).trans (congrArg₂ Prod.mk
    ((wsum_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (iblk m c 0 t) (iblk m c 1 t) (iblk m c 2 t)
        ((outsAt0 m c (t.val - 1) (Nat.lt_of_le_of_lt (Nat.sub_le _ _) t.isLt)).2.2)).trans
      (congrArg (k0_pay4 (iblk m c 0 t) (iblk m c 1 t)) hprev))
    (congrArg₂ Prod.mk
      (attn_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (iblk m c 0 t) (iblk m c 1 t) (iblk m c 2 t)
        ((outsAt0 m c (t.val - 1) (Nat.lt_of_le_of_lt (Nat.sub_le _ _) t.isLt)).2.2))
      hprev))

/-- The outputs' staging buffers and the scratch after the body at position `n`: the payloads of the point's blocks. -/
theorem outsAt_eq (c : Dev nD) : ∀ (n : ℕ) (h : n < cfg0.N), outsAt0 m c n h = paysAt m c ⟨n, h⟩
  | 0, h => at_first m c ⟨0, h⟩ (Nat.zero_mod 4)
  | n + 1, h => by
    by_cases h0 : (n + 1) % 4 = 0
    · exact at_first m c ⟨n + 1, h⟩ h0
    · refine at_later m c ⟨n + 1, h⟩ h0 ?_
      show (outsAt0 m c n (Nat.lt_of_succ_lt h)).2.2 = _
      rw [outsAt_eq c n (Nat.lt_of_succ_lt h)]
      exact congrArg k0_pay1 (x0blk_congr m c ⟨n, Nat.lt_of_succ_lt h⟩ ⟨n + 1, h⟩ (by dsimp only; omega))

end Cert.KernelIdeal.Carried

end
-- ==== Proof.KernelValue.lean ====
/-
  The kernel's two result arrays after the run are `weighted` and `attention` of the argument arrays.

  At grid point `t` the body's attention block is the softmax formula on the point's blocks; reading the point's input
  blocks where they sit in their arrays turns it into the whole-array `attention` at the element's position in the
  array (batch entry `t / 4`, row `512 · (t % 4) + r`). The weighted-sum block likewise, with the scratch holding the
  other input's rows of the same batch entry. Every index of either result array lies in exactly the block of its batch
  entry and row tile, so the blocks written back fill the arrays.
-/
import proofs.«161001_j82635170775524_2_alg».proof.Proof.Gen.KernelIdeal.Value
import proofs.«161001_j82635170775524_2_alg».proof.Proof.Payload
import proofs.«161001_j82635170775524_2_alg».proof.Proof.Carried

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx
open Cert.Attn Cert.KernelIdeal.Payload Cert.KernelIdeal.Blocks Cert.KernelIdeal.Carried

variable (m : (ℓ : Loc nD τ sig) → Buf (Elt Ideal) ℓ) (ρ : Dev nD → PrngReg)

/-- The attention formula on point `t`'s blocks is the whole-array formula at the element's place in the array. -/
theorem attnBlock_eq (c : Dev nD) (t : Fin cfg0.N) (y : S1x512x1024.Idx) :
    attentionBlock (iblk m c 0 t) (iblk m c 1 t) y = attention (V m c main_arg1) (V m c main_arg2) (rowIdx t y) := by
  obtain ⟨u, r, e, rfl⟩ : ∃ (u : Fin 1) (r : Fin 512) (e : Fin 1024), y = ix3 u r e := ⟨y 0, y 1, y 2, eq_ix3 y⟩
  unfold attentionBlock attention rowIdx
  refine congrArg₂ (fun x W => attnRow x W e) (funext fun d => ?_) (funext fun d => funext fun e' => ?_)
  · exact x1blk_apply m c t r d _ _ rfl rfl
  · exact wblk_apply m c t d e'

/-- The weighted-sum formula on point `t`'s blocks likewise. -/
theorem wsumBlock_eq (c : Dev nD) (t : Fin cfg0.N) (y : S1x512x2048.Idx) :
    weightedBlock (iblk m c 0 t) (iblk m c 1 t) (iblk m c 2 t) y
      = weighted (V m c main_arg0) (V m c main_arg1) (V m c main_arg2) (rowIdx t y) := by
  obtain ⟨u, r, s, rfl⟩ : ∃ (u : Fin 1) (r : Fin 512) (s : Fin 2048), y = ix3 u r s := ⟨y 0, y 1, y 2, eq_ix3 y⟩
  unfold weightedBlock weighted rowIdx
  refine congrArg₂ mix (congrArg₂ attnRow (funext fun d => ?_) (funext fun d => funext fun e' => ?_)) (funext fun d => ?_)
  · exact x1blk_apply m c t r d _ _ rfl rfl
  · exact wblk_apply m c t d e'
  · exact x0blk_apply m c t s d _ rfl

/-- What point `t` writes back to the attention array is block `t` of `attention`. -/
theorem flushed4_eq (c : Dev nD) (t : Fin cfg0.N) :
    (dats m 0 c).flushed 4 t = ((cfg0.win 4).blk t).view.read (Elt Ideal) (attention (V m c main_arg1) (V m c main_arg2)) := by
  rw [Cert.KernelIdeal.Value.flushed4 m c t, outsAt_eq m c t.val t.isLt]
  funext j
  show k0_pay3 (F := Ideal) (iblk m c 0 t) (iblk m c 1 t) j
    = attention (V m c main_arg1) (V m c main_arg2) (((cfg0.win 4).blk t).view.emb j)
  exact ((congrFun (pay3_eq (iblk m c 0 t) (iblk m c 1 t)) j).trans (attnBlock_eq m c t j)).trans
    (congrArg (attention (V m c main_arg1) (V m c main_arg2)) (emb4_eq t j).symm)

/-- What point `t` writes back to the weighted-sum array is block `t` of `weighted`. -/
theorem flushed3_eq (c : Dev nD) (t : Fin cfg0.N) :
    (dats m 0 c).flushed 3 t
      = ((cfg0.win 3).blk t).view.read (Elt Ideal) (weighted (V m c main_arg0) (V m c main_arg1) (V m c main_arg2)) := by
  rw [Cert.KernelIdeal.Value.flushed3 m c t, outsAt_eq m c t.val t.isLt]
  funext j
  show k0_pay4 (F := Ideal) (iblk m c 0 t) (iblk m c 1 t) (k0_pay1 (iblk m c 2 t)) j
    = weighted (V m c main_arg0) (V m c main_arg1) (V m c main_arg2) (((cfg0.win 3).blk t).view.emb j)
  exact ((congrFun (pay4_eq (iblk m c 0 t) (iblk m c 1 t) (iblk m c 2 t)) j).trans (wsumBlock_eq m c t j)).trans
    (congrArg (weighted (V m c main_arg0) (V m c main_arg1) (V m c main_arg2)) (emb3_eq t j).symm)

/-- The attention array after the run. -/
theorem final4 (c : Dev nD) : (dats m 0 c).arrAt 4 cfg0.N = attention (V m c main_arg1) (V m c main_arg2) :=
  (dats m 0 c).arrAt_eq_of_cover 4 (attention (V m c main_arg1) (V m c main_arg2)) (fun t _ => flushed4_eq m c t) cover4

/-- The weighted-sum array after the run. -/
theorem final3 (c : Dev nD) :
    (dats m 0 c).arrAt 3 cfg0.N = weighted (V m c main_arg0) (V m c main_arg1) (V m c main_arg2) :=
  (dats m 0 c).arrAt_eq_of_cover 3 (weighted (V m c main_arg0) (V m c main_arg1) (V m c main_arg2))
    (fun t _ => flushed3_eq m c t) cover3

/-- The run, read: both result arrays at their functions of the arguments, the arguments unchanged. -/
theorem run : θ_run defs (onTc (τ := τ) (main (F := Ideal))) ⟨m, fun _ => 0, ρ⟩ fun r => ∀ c : Dev nD,
      r.2.mem ((c : Thread nD τ).loc main_v0_0)
        = weighted (m ((c : Thread nD τ).loc main_arg0)) (m ((c : Thread nD τ).loc main_arg1)) (m ((c : Thread nD τ).loc main_arg2))
      ∧ r.2.mem ((c : Thread nD τ).loc main_v0_1)
        = attention (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.KernelIdeal.KValue

end
-- ==== Proof.RefValue.lean ====
/-
  The reference program's two results, read one operation at a time, are the whole-array functions `attention` and
  `weighted`.

  Its first matrix product at `(b, t, e)` is the logit `∑ d, x1 (b, t, d) * W (d, e)`. Its maximum over the last axis at
  `(b, t)` is the fold of `max` over that row from the −∞ word's value, and the further maximum the program takes with
  a broadcast of the same word changes nothing, because a fold of `max` is never below where it starts. The shift, the
  exponential, the row sum (the zero word plus the sum) and the quotient then spell the softmax of the row, and the
  second matrix product contracts it with row `(b, s)` of `x0`.
-/
import proofs.«161001_j82635170775524_2_alg».proof.Proof.Gen.ReferenceIdeal.Read
import proofs.«161001_j82635170775524_2_alg».proof.Proof.Spec
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Attn

variable (x1 : (⟨S8x2048x1024, .f32⟩ : BufTy).Contents (Elt Ideal)) (W : (⟨S1024x1024, .f32⟩ : BufTy).Contents (Elt Ideal))

/-- The reduction over the last axis of `[8, 2048, 1024]`, as the library's single-axis fact. -/
theorem hred : S8x2048x1024.Reduces [2] S8x2048 := by decide

/-- Inserting coordinate `k` on the reduced axis at `(b, t)` gives `(b, t, k)`. -/
theorem lift_eq (b : Fin 8) (t : Fin 2048) (k : Fin 1024) : hred.lift (ix2 b t) k = ix3 b t k :=
  funext fun a => Fin.ext (by match a with | ⟨0, _⟩ => rfl | ⟨1, _⟩ => rfl | ⟨2, _⟩ => rfl)

/-- The row of `x1` at `(b, t)` and the matrix `W` by coordinates. -/
abbrev xrow (b : Fin 8) (t : Fin 2048) : Fin 1024 → EReal := fun d => x1 (ix3 b t d)
abbrev wmat : Fin 1024 → Fin 1024 → EReal := fun d e => W (ix2 d e)

/-- The first matrix product at `(b, t, e)` is the logit of row `(b, t)` at `e`. -/
theorem logits_apply (b : Fin 8) (t : Fin 2048) (e : Fin 1024) :
    val_main_v0 (F := Ideal) x1 W (ix3 b t e) = logit (xrow x1 b t) (wmat W) e := by
  rw [val_main_v0_apply]
  unfold logit
  refine Finset.sum_congr rfl fun k _ => ?_
  have el : lidx_main_v0 (ix3 b t e) k = ix3 b t k :=
    funext fun a => Fin.ext (by match a with | ⟨0, _⟩ => rfl | ⟨1, _⟩ => rfl | ⟨2, _⟩ => rfl)
  have er : ridx_main_v0 (ix3 b t e) k = ix2 k e :=
    funext fun a => Fin.ext (by match a with | ⟨0, _⟩ => rfl | ⟨1, _⟩ => rfl)
  rw [el, er]

/-- The maximum over the last axis at `(b, t)` is the row maximum of the logits. -/
theorem reduceMax_apply (b : Fin 8) (t : Fin 2048) :
    val_main_v1 (F := Ideal) x1 W (ix2 b t) = rowMax (logit (xrow x1 b t) (wmat W)) := by
  unfold val_main_v1
  rw [Host.reduce_eq_fold_single FloatOps.maximumf _ _ reducesTo_S8x2048x1024_S8x2048_d2 hred h_S_ (ix2 b t)]
  unfold rowMax
  show (Finset.univ : Finset (Fin 1024)).fold max seed
      (fun k : Fin 1024 => val_main_v0 (F := Ideal) x1 W (hred.lift (ix2 b t) k)) = _
  exact Finset.fold_congr fun k _ => by rw [lift_eq, logits_apply]

/-- The program's second maximum, with a broadcast of the −∞ word, leaves the row maximum as it is. -/
theorem max_apply (b : Fin 8) (t : Fin 2048) :
    val_main_v3 (F := Ideal) x1 W (ix2 b t) = rowMax (logit (xrow x1 b t) (wmat W)) := by
  rw [val_main_v3_apply, val_main_v2_apply, val_main_cst_0_apply, reduceMax_apply]
  exact max_seed_rowMax _

/-- The shifted exponential at `(b, t, e)`. -/
theorem exp_apply (b : Fin 8) (t : Fin 2048) (e : Fin 1024) :
    val_main_v7 (F := Ideal) x1 W (ix3 b t e) = shifted (logit (xrow x1 b t) (wmat W)) e := by
  have e5 : idx_main_v5 (ix3 b t e) = ix3 b t (0 : Fin 1) :=
    funext fun a => Fin.ext (by match a with | ⟨0, _⟩ => rfl | ⟨1, _⟩ => rfl | ⟨2, _⟩ => rfl)
  have e4 : idx_main_v4 (ix3 b t (0 : Fin 1)) = ix2 b t :=
    funext fun a => Fin.ext (by match a with | ⟨0, _⟩ => rfl | ⟨1, _⟩ => rfl)
  rw [val_main_v7_apply, val_main_v6_apply, val_main_v5_apply, e5, val_main_v4_apply, e4, max_apply, logits_apply]
  rfl

/-- The row sum at `(b, t)`: the zero word's value plus the sum of the row's shifted exponentials. -/
theorem sum_apply (b : Fin 8) (t : Fin 2048) :
    val_main_v8 (F := Ideal) x1 W (ix2 b t) = ∑ k : Fin 1024, shifted (logit (xrow x1 b t) (wmat W)) k := by
  rw [val_main_v8_apply, val_main_cst_1_apply]
  show Ideal.ofBits .f32 0x00000000#32 + _ = _
  rw [Ideal.ofBits_zero_f32, zero_add]
  refine Finset.sum_congr rfl fun k _ => ?_
  have e8 : idx_main_v8 (ix2 b t) k = ix3 b t k :=
    funext fun a => Fin.ext (by match a with | ⟨0, _⟩ => rfl | ⟨1, _⟩ => rfl | ⟨2, _⟩ => rfl)
  rw [e8, exp_apply]

/-- The quotient at `(b, t, e)` is the softmax of the row at `e`. -/
theorem attn_apply (b : Fin 8) (t : Fin 2048) (e : Fin 1024) :
    val_main_v11 (F := Ideal) x1 W (ix3 b t e) = attnRow (xrow x1 b t) (wmat W) e := by
  have e10 : idx_main_v10 (ix3 b t e) = ix3 b t (0 : Fin 1) :=
    funext fun a => Fin.ext (by match a with | ⟨0, _⟩ => rfl | ⟨1, _⟩ => rfl | ⟨2, _⟩ => rfl)
  have e9 : idx_main_v9 (ix3 b t (0 : Fin 1)) = ix2 b t :=
    funext fun a => Fin.ext (by match a with | ⟨0, _⟩ => rfl | ⟨1, _⟩ => rfl)
  rw [val_main_v11_apply, val_main_v10_apply, e10, val_main_v9_apply, e9, sum_apply, exp_apply]
  rfl

/-- The reference's second result is `attention`. -/
theorem attention_eq : val_main_v11 (F := Ideal) x1 W = attention x1 W := by
  funext i
  obtain ⟨b, t, e, rfl⟩ : ∃ (b : Fin 8) (t : Fin 2048) (e : Fin 1024), i = ix3 b t e := ⟨i 0, i 1, i 2, eq_ix3 i⟩
  rw [attn_apply]
  rfl

/-- The reference's first result is `weighted`. -/
theorem weighted_eq (x0 : (⟨S8x2048x1024, .f32⟩ : BufTy).Contents (Elt Ideal)) :
    val_main_v12 (F := Ideal) x0 x1 W = weighted x0 x1 W := by
  funext i
  obtain ⟨b, t, s, rfl⟩ : ∃ (b : Fin 8) (t : Fin 2048) (s : Fin 2048), i = ix3 b t s := ⟨i 0, i 1, i 2, eq_ix3 i⟩
  rw [val_main_v12_apply]
  show _ = mix (attnRow (xrow x1 b t) (wmat W)) (fun d => x0 (ix3 b s d))
  unfold mix
  refine Finset.sum_congr rfl fun k _ => ?_
  have el : lidx_main_v12 (ix3 b t s) k = ix3 b t k :=
    funext fun a => Fin.ext (by match a with | ⟨0, _⟩ => rfl | ⟨1, _⟩ => rfl | ⟨2, _⟩ => rfl)
  have er : ridx_main_v12 (ix3 b t s) k = ix3 b s k :=
    funext fun a => Fin.ext (by match a with | ⟨0, _⟩ => rfl | ⟨1, _⟩ => rfl | ⟨2, _⟩ => rfl)
  rw [el, er, attn_apply]

end Cert.ReferenceIdeal.RefValue

end
-- ==== Proof.lean ====
/-
  The kernel computes, per batch entry and per tile of 512 rows, the softmax of the rows' logits (rows of the first
  input against the weight matrix) and the products of those softmax rows with all rows of the other input; the
  reference computes the same two arrays whole. On the extended reals both are one pair of functions of the argument
  arrays, `Cert.Attn.weighted` and `Cert.Attn.attention` (Proof/Spec.lean): the kernel's result arrays by what each grid
  point writes back and the fact that the blocks fill the arrays (Proof/KernelValue.lean, over the payloads read at an
  index in Proof/Payload.lean, the blocks' places in Proof/Blocks.lean, and the induction along the grid that the
  scratch buffer holds the current batch entry's rows in Proof/Carried.lean over Proof/Pieces.lean), the reference's
  results operation by operation (Proof/RefValue.lean). No step uses more than reordering a finite sum or a finite
  maximum, and `max seed μ = μ` for a maximum `μ` folded from `seed`, so the finiteness of the inputs is never used.
  The idealization rewrote nothing, so the kernel's idealization claim is trivial; the three frames are the two
  generated kernel frames and the reference's generated run with its results dropped.
-/
import proofs.«161001_j82635170775524_2_alg».proof.Defs
import proofs.«161001_j82635170775524_2_alg».proof.Proof.Gen.Kernel
import proofs.«161001_j82635170775524_2_alg».proof.Proof.Gen.Kernel.Frame
import proofs.«161001_j82635170775524_2_alg».proof.Proof.Gen.KernelIdeal
import proofs.«161001_j82635170775524_2_alg».proof.Proof.Gen.KernelIdeal.Frame
import proofs.«161001_j82635170775524_2_alg».proof.Proof.Gen.ReferenceIdeal
import proofs.«161001_j82635170775524_2_alg».proof.Proof.Gen.Pre_finite_inputs
import proofs.«161001_j82635170775524_2_alg».proof.Proof.Gen.KernelIdeal.Value
import proofs.«161001_j82635170775524_2_alg».proof.Proof.Gen.ReferenceIdeal.Run
import proofs.«161001_j82635170775524_2_alg».proof.Proof.Gen.ReferenceIdeal.Read
import proofs.«161001_j82635170775524_2_alg».proof.Proof.KernelValue
import proofs.«161001_j82635170775524_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization pass rewrote no operation. -/
theorem preserves : Cert.preserves_Kernel_KernelIdeal := trivial

/-- Both programs end with `weighted` and `attention` of argument arrays that agree. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v12_eq, Cert.ReferenceIdeal.RefValue.weighted_eq, (hagree c).1, (hagree c).2.1, (hagree c).2.2]
  · rw [Cert.ReferenceIdeal.Read.val_main_v11_eq, Cert.ReferenceIdeal.RefValue.attention_eq, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
